-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2000x128 : Shape := ⟨2, ![2000, 128]⟩
abbrev S1x128 : Shape := ⟨2, ![1, 128]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S1x64 : Shape := ⟨2, ![1, 64]⟩
abbrev S200 : Shape := ⟨1, ![200]⟩
abbrev S200x1 : Shape := ⟨2, ![200, 1]⟩

abbrev nBuf : Space → Nat
  | .hbm => 13
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .bf16⟩
  | .hbm, ⟨7, _⟩ => ⟨S10000x128, .bf16⟩
  | .hbm, ⟨8, _⟩ => ⟨S1x128, .f32⟩
  | .hbm, ⟨9, _⟩ => ⟨S128x64, .bf16⟩
  | .hbm, ⟨10, _⟩ => ⟨S10000x64, .bf16⟩
  | .hbm, ⟨11, _⟩ => ⟨S1x64, .f32⟩
  | .hbm, ⟨12, _⟩ => ⟨S10000x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .bf16⟩
  | .local _ .vmem, ⟨4, _⟩ => ⟨S2000x128, .bf16⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S1x128, .f32⟩
  | .local _ .vmem, ⟨9, _⟩ => ⟨S128x64, .bf16⟩
  | .local _ .vmem, ⟨10, _⟩ => ⟨S200x64, .bf16⟩
  | .local _ .vmem, ⟨11, _⟩ => ⟨S200x64, .bf16⟩
  | .local _ .vmem, ⟨12, _⟩ => ⟨S200x10000, .f32⟩
  | .local _ .vmem, ⟨13, _⟩ => ⟨S200x10000, .f32⟩
  | .local _ .vmem, ⟨14, _⟩ => ⟨S10000x64, .bf16⟩
  | .local _ .vmem, ⟨15, _⟩ => ⟨S1x64, .f32⟩
  | .local _ .vmem, ⟨16, _⟩ => ⟨S200x64, .f32⟩
  | .local _ .vmem, ⟨17, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .bf16 = 32 ∨ (Rect.block (s := S10000x64) S200x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x64.size a ≤ S10000x64.size a
  hwx2_3 : ∀ i : grid2.Coords, EltTy.bits .f32 = 32 ∨ (Rect.block (s := S10000x64) S200x64.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S200x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S200x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The idealized kernel's run with its result array named.

  @main is three pipelined regions among stretches of host operations. Every weakly fair execution terminates, nothing
  faulting, with the argument arrays as launched and the result array holding what the fold of the buffer contents
  through @main's segments leaves there: the contents after the third region's write-backs. The later modules read that
  fold back, region by region, to one function of the argument arrays.
-/
import proofs.«125310_g36017595744856_cont_8to1_b_1121_3_alg».proof.Proof.Gen.KernelIdeal.Frame

-- membership in a rectangle of production extents (`View.cover_of_tiled`): the elaborator's structural look
-- recurses once per coordinate of the long axes
set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates with the result array at the last segment boundary's contents and
    the arguments as launched. -/
theorem run_named : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«125310_g36017595744856_cont_8to1_b_1121_3_alg».proof.Proof.LibPlainDot
import proofs.«125310_g36017595744856_cont_8to1_b_1121_3_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibHostRowMax.lean ====
/-
  GENERAL LEMMA: the host's reduce with a maximum body along the second axis of a rank-2 array — what
  `max(x, axis=1)` is in a host program — read at an index given by coordinates.
  • `hostReduce_maximumf_axis1_apply`: on the extended reals, the reduce of an `[a, b]` array along axis 1, at `i`, is the
    fold of `max` over the entries `(i, k)` of row `i`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 1 of an `[a, b]` array of extended reals: at `i` it is the fold of `max`, from the
    initial value, over the entries of row `i`. -/
theorem hostReduce_maximumf_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x _ h' h hu]
  refine congrArg (fun f => Finset.fold max (init (Shape.Idx.first hu)) f (Finset.univ : Finset (Fin b))) (funext fun k => congrArg x ?_)
  funext c
  match c with
  | ⟨0, _⟩ => exact Fin.ext rfl
  | ⟨1, _⟩ => exact Fin.ext rfl

end Idealize.ShloMosaic.ValueIdx

end
-- ==== Proof.LibHostRowSum.lean ====
/-
  GENERAL LEMMA: the host's sum along the second axis of a rank-2 array — what `sum(x, axis=1)` is in a host program —
  read at an index given by coordinates.
  • `hostReduceAdd_axis1_apply`: on the extended reals, the sum-reduce of an `[a, b]` array along axis 1, at `i`, is the
    initial value's one element plus the sum over `k` of the entries `(i, k)` of row `i`.
-/
import Idealize.ShloMosaic.Lib.ValueIdx
import Idealize.ShloMosaic.PureOps.Ideal.Laws
import Idealize.ShloMosaic.PureOps.Reduce

noncomputable section

open scoped BigOperators

namespace Idealize.ShloMosaic.ValueIdx

open Idealize.ShloMosaic

/-- The host's sum along axis 1 of an `[a, b]` array of extended reals: at `i` it is the initial value plus the sum of
    row `i`. -/
theorem hostReduceAdd_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd x init h' hu (ix1 i) = init (Shape.Idx.first hu) + ∑ k : Fin b, x (ix2 i k) := by
  unfold Host.reduceAdd
  rw [Ideal.hostReduceAdd_def]
  refine (Ideal.hostReduceAdd_single h' h x _ (ix1 i)).trans ?_
  refine congrArg (fun s => init (Shape.Idx.first hu) + s) (Finset.sum_congr rfl fun k _ => congrArg x ?_)
  funext c
  match c with
  | ⟨0, _⟩ => exact Fin.ext rfl
  | ⟨1, _⟩ => exact Fin.ext rfl

end Idealize.ShloMosaic.ValueIdx

end
-- ==== Proof.LibLogSoftmax.lean ====
/-
  GENERAL LEMMAS: the log-softmax of each row of a rank-2 array, in its shifted form, read one entry at a time on the
  extended reals.

  For a row z the shifted form is (z c − M) − log Σₖ exp (z k − M) with M the largest entry of the row. Both a vector
  program and a host program spell it with keep-dimension columns: the row maxima as a column [a,1] broadcast back over
  the columns, the row sums of the exponentials likewise. The vector program folds the maximum from minus infinity's float
  pattern by a lane reduction and recasts [a] as [a,1]; the host program reduces from a scalar minus infinity, takes the
  maximum with a broadcast minus infinity once more (which changes nothing: the fold already starts there), and adds
  the exponentials from a scalar zero (which adds nothing). Both are `row` of the array's row.
-/
import Idealize.ShloMosaic.PureOps.Ideal.Laws
import Idealize.ShloMosaic.Lib.ValueIdx
import Idealize.ShloMosaic.Lib.Pipeline.Value
import proofs.«125310_g36017595744856_cont_8to1_b_1121_3_alg».proof.Proof.LibRowMax
import proofs.«125310_g36017595744856_cont_8to1_b_1121_3_alg».proof.Proof.LibKeepdims
import proofs.«125310_g36017595744856_cont_8to1_b_1121_3_alg».proof.Proof.LibHostRowMax
import proofs.«125310_g36017595744856_cont_8to1_b_1121_3_alg».proof.Proof.LibHostRowSum

noncomputable section

open scoped BigOperators

namespace Idealize.ShloMosaic.LogSoftmax

open Idealize.ShloMosaic Idealize.ShloMosaic.ValueIdx

/-- The largest entry of a row, folded from minus infinity's float pattern. -/
def rowMax {N : Nat} (z : Fin N → EReal) : EReal :=
  (Finset.univ : Finset (Fin N)).fold max (Ideal.ofBits .f32 0xFF800000#32) z

/-- The log-softmax of a row in its shifted form. -/
def row {N : Nat} (z : Fin N → EReal) (c : Fin N) : EReal :=
  (z c - rowMax z) - Ideal.log (∑ k : Fin N, Ideal.exp (z k - rowMax z))

/-- A column `[a, 1]` laid over `b` columns by a host broadcast reads, at `(p, c)`, the column's entry `p`. -/
theorem broadcastInDim_col_apply {α : Type} {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) := by
  refine broadcastInDim_apply _ h w (ix2 p c) (ix2 p (0 : Fin 1)) fun d => ?_
  match d with
  | ⟨0, _⟩ =>
    show p.val = if a = 1 then 0 else p.val
    split
    · have := p.isLt; omega
    · rfl
  | ⟨1, _⟩ => show 0 = if (1 : Nat) = 1 then 0 else c.val; rw [if_pos rfl]

/-- A vector `[a]` laid out as a column `[a, 1]` by a host broadcast reads, at `(p, u)`, the vector's entry `p`. -/
theorem broadcastInDim_toCol_apply {α : Type} {a : ℕ} (w : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h w (ix2 p u) = w (ix1 p) := by
  refine broadcastInDim_apply _ h w (ix2 p u) (ix1 p) fun d => ?_
  match d with
  | ⟨0, _⟩ =>
    show p.val = if a = 1 then 0 else p.val
    split
    · have := p.isLt; omega
    · rfl

/-- The vector program's spelling: lane reductions from the patterns of minus infinity and zero, recast as columns and
    broadcast back. -/
theorem vector_apply {a b : ℕ} (v : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    subf (subf v (broadcastTo ⟨2, ![a, b]⟩ (shapeCast ⟨2, ![a, 1]⟩ (multiReduction .maximumf [1] ⟨1, ![a]⟩ v 0xFF800000#32 hr hφ hmax) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hmax) hc) hb)))
          0x00000000#32 hr hφ hadd) hc)) hb) (ix2 p c)
      = row (fun k => v (ix2 p k)) c := by
  have hm : ∀ q : Fin b, broadcastTo ⟨2, ![a, b]⟩ (shapeCast ⟨2, ![a, 1]⟩ (multiReduction .maximumf [1] ⟨1, ![a]⟩ v 0xFF800000#32 hr hφ hmax) hc) hb (ix2 p q)
      = rowMax (fun k => v (ix2 p k)) := fun q => by
    rw [broadcastTo_a1_ab_apply, shapeCast_a_a1_apply, multiReduction_maximumf_axis1_apply]
    rfl
  rw [subf_apply, subf_apply, hm c, broadcastTo_a1_ab_apply]
  show (v (ix2 p c) - rowMax (fun k => v (ix2 p k)))
      - Ideal.log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hmax) hc) hb)))
          0x00000000#32 hr hφ hadd) hc (ix2 p (0 : Fin 1))) = _
  rw [shapeCast_a_a1_apply, multiReduction_add_axis1_apply]
  unfold row
  refine congrArg (fun s => (v (ix2 p c) - rowMax (fun k => v (ix2 p k))) - Ideal.log s) (Finset.sum_congr rfl fun k _ => ?_)
  show Ideal.exp (v (ix2 p k) - broadcastTo ⟨2, ![a, b]⟩ (shapeCast ⟨2, ![a, 1]⟩ (multiReduction .maximumf [1] ⟨1, ![a]⟩ v 0xFF800000#32 hr hφ hmax) hc) hb (ix2 p k)) = _
  rw [hm k]

/-- The host program's spelling: reduces from scalar constants, a second maximum with a broadcast minus infinity, host
    broadcasts of the columns. -/
theorem host_apply {a b : ℕ} (z : FVec Ideal ⟨2, ![a, b]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (hr' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) (c : Fin b) :
    subf (subf z (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu)))))
        (broadcastInDim ⟨2, ![a, b]⟩ ![0, 1] h2 (Host.log (broadcastInDim ⟨2, ![a, 1]⟩ ![0] h1
          (Host.reduceAdd (Host.exp (subf z (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf z (constant (F := Ideal) ⟨0, ![]⟩ .f32 0xFF800000#32) hr' hu))))))
            (constant (F := Ideal) ⟨0, ![]⟩ .f32 0x00000000#32) hr' hu)))) (ix2 p c)
      = row (fun k => z (ix2 p k)) c := by
  have hm : ∀ q : Fin b, broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))) (ix2 p q)
      = rowMax (fun k => z (ix2 p k)) := fun q => by
    rw [broadcastInDim_col_apply, broadcastInDim_toCol_apply, maximumf_apply,
      broadcastInDim_apply _ h0 _ (ix1 p) ix0 (fun d => d.elim0), hostReduce_maximumf_axis1_apply z _ hr' hr hu p]
    exact max_eq_right ((Finset.le_fold_max _).mpr (Or.inl le_rfl))
  rw [subf_apply, subf_apply, hm c, broadcastInDim_col_apply]
  show (z (ix2 p c) - rowMax (fun k => z (ix2 p k)))
      - Ideal.log (broadcastInDim ⟨2, ![a, 1]⟩ ![0] h1
          (Host.reduceAdd (Host.exp (subf z (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf z (constant (F := Ideal) ⟨0, ![]⟩ .f32 0xFF800000#32) hr' hu))))))
            (constant (F := Ideal) ⟨0, ![]⟩ .f32 0x00000000#32) hr' hu) (ix2 p (0 : Fin 1))) = _
  rw [broadcastInDim_toCol_apply, hostReduceAdd_axis1_apply _ _ hr' hr hu p]
  unfold row
  refine congrArg (fun s => (z (ix2 p c) - rowMax (fun k => z (ix2 p k))) - Ideal.log s) ?_
  show Ideal.ofBits .f32 0x00000000#32 + _ = _
  rw [Ideal.ofBits_zero_f32, zero_add]
  refine Finset.sum_congr rfl fun k _ => ?_
  show Ideal.exp (z (ix2 p k) - broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))) (ix2 p k)) = _
  rw [hm k]

end Idealize.ShloMosaic.LogSoftmax

end
-- ==== Proof.Spec.lean ====
/-
  The two-layer graph convolution, row by row, on the extended reals.

  With a dense adjacency `adj` (n × n), features `x` (n × f), weights `W1` (f × h), `W2` (h × c) and biases `b1`, `b2`:
      s   = x · W1
      g   = relu (adj · s + b1) · W2
      out = log_softmax (adj · g + b2)        (along each row)
  Each of the three stages sends every ROW of its streamed operand (`x`, then `adj` twice) through one function of that row
  alone, the small operands being fixed: `rowProd`, `rowHidden`, `rowOut`. `mapRows` applies such a row function to all
  rows. Because a result row depends on no other row of the streamed operand, a stage computed on a block of consecutive
  rows is the corresponding block of rows of the stage computed on the whole array (`mapRows_block`): this is what lets
  a result assembled from row blocks be read as one whole-array function.
  The log-softmax of a row is taken in its shifted form (z − max) − log Σ exp (z − max), the maximum folded from minus
  infinity's float pattern (`LogSoftmax.row`): the form both programs compute.
-/
import Idealize.ShloMosaic.PureOps.Ideal.Laws
import Idealize.ShloMosaic.Lib.ValueIdx
import proofs.«125310_g36017595744856_cont_8to1_b_1121_3_alg».proof.Proof.LibDense
import proofs.«125310_g36017595744856_cont_8to1_b_1121_3_alg».proof.Proof.LibLogSoftmax

noncomputable section

open scoped BigOperators

namespace Cert.Gcn

open Idealize.ShloMosaic Idealize.ShloMosaic.ValueIdx

/-- A matrix of extended reals with `a` rows and `b` columns, indexed by its shape's coordinates. -/
abbrev Mat (a b : Nat) : Type := (⟨2, ![a, b]⟩ : Shape).Idx → EReal

/-- Every row of `l` sent through the row function `f`: entry `(p, c)` is `f (row p of l) c`. -/
def mapRows {M K N : Nat} (f : (Fin K → EReal) → Fin N → EReal) (l : Mat M K) : Mat M N :=
  fun j => f (fun k => l (ix2 (j 0) k)) (j 1)

/-- A row times a matrix: entry `c` is `∑ k, row k · w (k, c)`. -/
def rowProd {K N : Nat} (w : Mat K N) (row : Fin K → EReal) (c : Fin N) : EReal :=
  ∑ k : Fin K, row k * w (ix2 k c)

/-- A row times a matrix plus a bias: entry `c` is `∑ k, row k · w (k, c) + b c`. -/
def rowAffine {K N : Nat} (w : Mat K N) (b : Fin N → EReal) (row : Fin K → EReal) (c : Fin N) : EReal :=
  Dense.lin row (fun k n => w (ix2 k n)) b c

/-- The first layer followed by the second layer's weights: the positive part of `row · s + b1`, times `w2`. -/
def rowHidden {K H N : Nat} (s : Mat K H) (b1 : Fin H → EReal) (w2 : Mat H N) (row : Fin K → EReal) (c : Fin N) : EReal :=
  ∑ j : Fin H, Dense.relu (rowAffine s b1 row j) * w2 (ix2 j c)

/-- The output layer: the log-softmax of `row · g + b2`. -/
def rowOut {K N : Nat} (g : Mat K N) (b2 : Fin N → EReal) (row : Fin K → EReal) : Fin N → EReal :=
  LogSoftmax.row (rowAffine g b2 row)

/-- The network's result as one function of its six arrays. -/
def gcn (x : Mat 10000 128) (adj : Mat 10000 10000) (W1 : Mat 128 128) (b1 : Fin 128 → EReal) (W2 : Mat 128 64)
    (b2 : Fin 64 → EReal) : Mat 10000 64 :=
  mapRows (rowOut (mapRows (rowHidden (mapRows (rowProd W1) x) b1 W2) adj) b2) adj

/-- A row function applied to a block of rows is the block of the row function applied to the whole array: if row
    `j 0` of the block `l'` is row `i 0` of `l` and the columns agree, the entries agree. -/
theorem mapRows_block {M M' K N : Nat} (f : (Fin K → EReal) → Fin N → EReal) (l' : Mat M' K) (l : Mat M K)
    (j : (⟨2, ![M', N]⟩ : Shape).Idx) (i : (⟨2, ![M, N]⟩ : Shape).Idx)
    (hrow : ∀ k : Fin K, l' (ix2 (j 0) k) = l (ix2 (i 0) k)) (hcol : j 1 = i 1) :
    mapRows f l' j = mapRows f l i := by
  unfold mapRows
  rw [hcol]
  exact congrArg (fun r => f r (i 1)) (funext hrow)

end Cert.Gcn

end
-- ==== Proof.RegionSupport.lean ====
/-
  The first region: s = x · W1, computed on five blocks of 2000 rows of x.

  At a grid point the body multiplies its block of 2000 rows of `x` by the whole (resident) weight matrix, so what the point
  writes back is `mapRows (rowProd W1)` of the block; a row of the product depends on the same row of `x` only, so that is
  block `t` of `mapRows (rowProd W1) x`. The five blocks tile the 10000 rows (row r lies in block r / 2000), hence after the
  region the output array is `mapRows (rowProd W1) x` of the arrays as the region found them.
-/
import proofs.«125310_g36017595744856_cont_8to1_b_1121_3_alg».proof.Proof.Gen.KernelIdeal.Frame
import Idealize.ShloMosaic.Lib.Pipeline.Value
import proofs.«125310_g36017595744856_cont_8to1_b_1121_3_alg».proof.Proof.Spec
import proofs.«125310_g36017595744856_cont_8to1_b_1121_3_alg».proof.Proof.LibPlainDot

noncomputable section

namespace Cert.KernelIdeal.Support

open Cert.KernelIdeal Cert.KernelIdeal.Gen Idealize.ShloMosaic Idealize.ShloMosaic.TcCoe Idealize.SL.Sem
open Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's result on a block: every row of the block times the weights (a product into the zero accumulator; the
    changes of float format are the identity). -/
theorem payload_eq (x0 : Mat 2000 128) (x1 : Mat 128 128) :
    k0_pay1 (F := Ideal) x0 x1 = mapRows (rowProd x1) x0 := by
  funext j
  unfold k0_pay1
  show matmul _ none (truncf .bf16 x0 _) (shapeCast S128x128 x1 _) (constant (F := Ideal) S2000x128 .f32 0x00000000#32) j
    = ∑ k : Fin 128, x0 (ix2 (j 0) k) * x1 (ix2 k (j 1))
  refine (PlainDot.matmul_zero_apply _ rfl none _ _ j).trans ?_
  refine Finset.sum_congr rfl fun k _ => ?_
  rw [shapeCast_self]
  rfl

/-- The printed index maps over the grid: the row-block index of `x`'s window is the output's, every other block index
    is zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some point's. -/
theorem idx_onto : ∀ q : Fin 5, ∃ t : Fin cfg0.N, win0_2.index t = ![q.val, 0] :=
  (by decide +kernel : ∀ q : Fin 5, ∃ t : Fin grid0.N, win0_2.index t = ![q.val, 0])

/-- The weights' window is the whole array at every point. -/
theorem weights_block (c : Dev nD) (t : Fin cfg0.N) : iblk0 V c 1 t = V c main_v0 := by
  obtain ⟨-, -, e2, e3, -⟩ := idx_facts t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of `x · W1` of the arrays as the region finds them. -/
theorem flushed_eq (c : Dev nD) (t : Fin cfg0.N) :
    (dat0 V c).flushed 2 t
      = ((cfg0.win 2).blk t).view.read (Elt Ideal) (mapRows (M := 10000) (K := 128) (N := 128) (rowProd (V c main_v0)) (V c main_arg0)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [payload_eq, weights_block]
  obtain ⟨e0, e1, -, -, e4⟩ := idx_facts t
  funext j
  show mapRows (rowProd (V c main_v0)) (iblk0 V c 0 t) j
    = mapRows (rowProd (V c main_v0)) (V c main_arg0) (((cfg0.win 2).blk t).view.emb j)
  refine mapRows_block _ _ _ j _ (fun k => ?_) (Fin.ext ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show (j 1).val = win0_2.index t (1 : Fin 2) * 128 + 1 * (j 1).val; omega

/-- An index of the array is in point `t`'s block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1).slice (win0_2.rect t)).set ↔ _
  rw [View.set_slice_whole, Rect.mem_set_unit]
  exact Iff.rfl

/-- The blocks tile the array: row `r` lies in the block of point `r / 2000`. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array is `x · W1` of the arrays as the region found them. -/
theorem final (c : Dev nD) :
    (dat0 V c).arrAt 2 cfg0.N = mapRows (M := 10000) (K := 128) (N := 128) (rowProd (V c main_v0)) (V c main_arg0) :=
  (dat0 V c).arrAt_eq_of_cover 2 _ (fun t _ => flushed_eq V c t) cover

end Cert.KernelIdeal.Support

end
-- ==== Proof.RegionHidden.lean ====
/-
  The second region: g = relu (adj · s + b1) · W2, computed on fifty blocks of 200 rows of adj.

  At a grid point the body multiplies its block of 200 full rows of `adj` by the resident `s`, adds the bias row, takes the
  positive part and multiplies by the resident `W2`: `mapRows (rowHidden s b1 W2)` of the block. A result row depends on the
  same row of `adj` only, so that is block `t` of the same row function applied to all of `adj`; the fifty blocks tile the
  10000 rows (row r lies in block r / 200).
-/
import proofs.«125310_g36017595744856_cont_8to1_b_1121_3_alg».proof.Proof.Gen.KernelIdeal.Frame
import Idealize.ShloMosaic.Lib.Pipeline.Value
import proofs.«125310_g36017595744856_cont_8to1_b_1121_3_alg».proof.Proof.Spec
import proofs.«125310_g36017595744856_cont_8to1_b_1121_3_alg».proof.Proof.LibPlainDot
import proofs.«125310_g36017595744856_cont_8to1_b_1121_3_alg».proof.Proof.LibDense

noncomputable section

namespace Cert.KernelIdeal.Hidden

open Cert.KernelIdeal Cert.KernelIdeal.Gen Idealize.ShloMosaic Idealize.ShloMosaic.TcCoe Idealize.SL.Sem
open Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's result on a block: every row of the block through `rowHidden` (two products into zero accumulators, the
    bias a `[1, 128]` row broadcast down the rows, the positive part against a splat zero; the changes of float format
    and the casts of a shape to itself are the identity). -/
theorem payload_eq (x0 : Mat 200 10000) (x1 : Mat 10000 128) (x2 : Mat 1 128) (x3 : Mat 128 64) :
    k1_pay1 (F := Ideal) x0 x1 x2 x3 = mapRows (rowHidden x1 (fun n => x2 (ix2 (0 : Fin 1) n)) x3) x0 := by
  funext j
  unfold k1_pay1
  show matmul _ none (truncf .bf16 (maximumf (addf (matmul _ none (truncf .bf16 x0 _) (shapeCast S10000x128 x1 _)
          (constant (F := Ideal) S200x128 .f32 0x00000000#32)) (broadcastTo S200x128 (shapeCast S1x128 x2 _) _))
        (broadcast S200x128 (Scalar.ofBits (F := Ideal) .f32 0x00000000#32))) _) (shapeCast S128x64 x3 _)
      (constant (F := Ideal) S200x64 .f32 0x00000000#32) j
    = ∑ i : Fin 128, Dense.relu (Dense.lin (fun k => x0 (ix2 (j 0) k)) (fun k n => x1 (ix2 k n)) (fun n => x2 (ix2 (0 : Fin 1) n)) i) * x3 (ix2 i (j 1))
  rw [shapeCast_self x1, shapeCast_self x2, shapeCast_self x3]
  refine (PlainDot.matmul_zero_apply (φ₂ := .bf16) _ rfl none _ _ j).trans ?_
  refine Finset.sum_congr rfl fun i _ => congrArg (· * x3 (ix2 i (j 1))) ?_
  show maximumf (addf (matmul _ none (truncf .bf16 x0 _) x1 (constant (F := Ideal) S200x128 .f32 0x00000000#32)) (broadcastTo S200x128 x2 _))
      (broadcast S200x128 (Scalar.ofBits (F := Ideal) .f32 0x00000000#32)) (ix2 (j 0) i) = _
  exact Dense.matmul_bias_relu_apply (φ₂ := .bf16) _ rfl _ _ _ _ (j 0) i

/-- The printed index maps over the grid: the row-block index of `adj`'s window is the output's, every other block index
    is zero. -/
theorem idx_facts : ∀ t : Fin cfg1.N, win1_0.index t (0 : Fin 2) = win1_4.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every row block is some point's. -/
theorem idx_onto : ∀ q : Fin 50, ∃ t : Fin cfg1.N, win1_4.index t = ![q.val, 0] :=
  (by decide +kernel : ∀ q : Fin 50, ∃ t : Fin grid1.N, win1_4.index t = ![q.val, 0])

/-- The first region's result is staged whole at every point. -/
theorem support_block (c : Dev nD) (t : Fin cfg1.N) : iblk1 V c 1 t = V c main_v1 := by
  have e := idx_facts t
  funext y
  show V c main_v1 (((cfg1.win 1).blk t).view.emb y) = V c main_v1 y
  refine congrArg (V c main_v1) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias row is staged whole at every point. -/
theorem bias_block (c : Dev nD) (t : Fin cfg1.N) : iblk1 V c 2 t = V c main_v2 := by
  have e := idx_facts t
  funext y
  show V c main_v2 (((cfg1.win 2).blk t).view.emb y) = V c main_v2 y
  refine congrArg (V c main_v2) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second layer's weights are staged whole at every point. -/
theorem weights_block (c : Dev nD) (t : Fin cfg1.N) : iblk1 V c 3 t = V c main_v3 := by
  have e := idx_facts t
  funext y
  show V c main_v3 (((cfg1.win 3).blk t).view.emb y) = V c main_v3 y
  refine congrArg (V c main_v3) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- What point `t` writes back is block `t` of the row function applied to all of `adj`, of the arrays as the region
    finds them. -/
theorem flushed_eq (c : Dev nD) (t : Fin cfg1.N) :
    (dat1 V c).flushed 4 t
      = ((cfg1.win 4).blk t).view.read (Elt Ideal) (mapRows (M := 10000) (K := 10000) (N := 64) (rowHidden (V c main_v1) (fun n => V c main_v2 (ix2 (0 : Fin 1) n)) (V c main_v3)) (V c main_arg1)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x128) hz, View.ld_unit_zero (S := S1x128) hz,
    View.ld_unit_zero (S := S128x64) hz]
  rw [payload_eq, support_block, bias_block, weights_block]
  have e := idx_facts t
  funext j
  show mapRows (rowHidden (V c main_v1) (fun n => V c main_v2 (ix2 (0 : Fin 1) n)) (V c main_v3)) (iblk1 V c 0 t) j
    = mapRows (rowHidden (V c main_v1) (fun n => V c main_v2 (ix2 (0 : Fin 1) n)) (V c main_v3)) (V c main_arg1) (((cfg1.win 4).blk t).view.emb j)
  refine mapRows_block _ _ _ j _ (fun k => ?_) (Fin.ext ?_)
  · show V c main_arg1 (((cfg1.win 0).blk t).view.emb (ix2 (j 0) k)) = V c main_arg1 (ix2 ((((cfg1.win 4).blk t).view.emb j) 0) k)
    refine congrArg (V c main_arg1) (funext fun a => Fin.ext ?_)
    match a with
    | ⟨0, _⟩ => show win1_0.index t (0 : Fin 2) * 200 + 1 * (j 0).val = win1_4.index t (0 : Fin 2) * 200 + 1 * (j 0).val; omega
    | ⟨1, _⟩ => show win1_0.index t (1 : Fin 2) * 10000 + 1 * k.val = k.val; omega
  · show (j 1).val = win1_4.index t (1 : Fin 2) * 64 + 1 * (j 1).val; omega

/-- An index of the array is in point `t`'s block iff each coordinate is in the block's range on its axis. -/
theorem mem_blk (t : Fin cfg1.N) (i : S10000x64.Idx) :
    i ∈ ((cfg1.win 4).blk t).view.set ↔ ∀ a : Fin 2, win1_4.index t a * S200x64.size a ≤ (i a).val ∧ (i a).val < win1_4.index t a * S200x64.size a + S200x64.size a := by
  show i ∈ ((View.whole main_v4).slice (win1_4.rect t)).set ↔ _
  rw [View.set_slice_whole, Rect.mem_set_unit]
  exact Iff.rfl

/-- The blocks tile the array: row `r` lies in the block of point `r / 200`. -/
theorem cover (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ := idx_onto ⟨(i 0).val / 200, by omega⟩
  have q0 : win1_4.index t (0 : Fin 2) = (i 0).val / 200 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 64 ≤ (i 1).val ∧ (i 1).val < win1_4.index t (1 : Fin 2) * 64 + 64; omega

/-- After the region the output array is the row function applied to all of `adj`, of the arrays as the region found them. -/
theorem final (c : Dev nD) :
    (dat1 V c).arrAt 4 cfg1.N = mapRows (M := 10000) (K := 10000) (N := 64) (rowHidden (V c main_v1) (fun n => V c main_v2 (ix2 (0 : Fin 1) n)) (V c main_v3)) (V c main_arg1) :=
  (dat1 V c).arrAt_eq_of_cover 4 _ (fun t _ => flushed_eq V c t) cover

end Cert.KernelIdeal.Hidden

end
-- ==== Proof.RegionOutput.lean ====
/-
  The third region: out = log_softmax (adj · g + b2), computed on fifty blocks of 200 rows of adj.

  At a grid point the body multiplies its block of 200 full rows of `adj` by the resident `g`, adds the bias row and takes
  the shifted log-softmax of each row: `mapRows (rowOut g b2)` of the block. A result row depends on the same row of `adj`
  only, so that is block `t` of the same row function applied to all of `adj`; the fifty blocks tile the 10000 rows.
-/
import proofs.«125310_g36017595744856_cont_8to1_b_1121_3_alg».proof.Proof.Gen.KernelIdeal.Frame
import Idealize.ShloMosaic.Lib.Pipeline.Value
import proofs.«125310_g36017595744856_cont_8to1_b_1121_3_alg».proof.Proof.Spec
import proofs.«125310_g36017595744856_cont_8to1_b_1121_3_alg».proof.Proof.LibPlainDot
import proofs.«125310_g36017595744856_cont_8to1_b_1121_3_alg».proof.Proof.LibDense
import proofs.«125310_g36017595744856_cont_8to1_b_1121_3_alg».proof.Proof.LibLogSoftmax

noncomputable section

namespace Cert.KernelIdeal.Output

open Cert.KernelIdeal Cert.KernelIdeal.Gen Idealize.ShloMosaic Idealize.ShloMosaic.TcCoe Idealize.SL.Sem
open Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's result on a block: every row of the block through `rowOut` (a product into the zero accumulator plus the
    bias row, then the shifted log-softmax by lane reductions kept as columns). -/
theorem payload_eq (x0 : Mat 200 10000) (x1 : Mat 10000 64) (x2 : Mat 1 64) :
    k2_pay1 (F := Ideal) x0 x1 x2 = mapRows (rowOut x1 (fun n => x2 (ix2 (0 : Fin 1) n))) x0 := by
  funext j
  obtain ⟨p, q, rfl⟩ : ∃ (p : Fin 200) (q : Fin 64), j = ix2 p q := ⟨j 0, j 1, eq_ix2 j⟩
  unfold k2_pay1
  rw [shapeCast_self x1, shapeCast_self x2]
  refine (LogSoftmax.vector_apply _ _ _ _ _ _ _ p q).trans ?_
  show LogSoftmax.row _ q = LogSoftmax.row (rowAffine x1 (fun n => x2 (ix2 (0 : Fin 1) n)) (fun k => x0 (ix2 p k))) q
  refine congrArg (fun z => LogSoftmax.row z q) (funext fun k => ?_)
  exact Dense.matmul_bias_apply _ rfl _ _ _ _ p k

/-- The printed index maps over the grid: the row-block index of `adj`'s window is the output's, every other block index
    is zero. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every row block is some point's. -/
theorem idx_onto : ∀ q : Fin 50, ∃ t : Fin cfg2.N, win2_3.index t = ![q.val, 0] :=
  (by decide +kernel : ∀ q : Fin 50, ∃ t : Fin grid2.N, win2_3.index t = ![q.val, 0])

/-- The second region's result is staged whole at every point. -/
theorem hidden_block (c : Dev nD) (t : Fin cfg2.N) : iblk2 V c 1 t = V c main_v4 := by
  have e := idx_facts t
  funext y
  show V c main_v4 (((cfg2.win 1).blk t).view.emb y) = V c main_v4 y
  refine congrArg (V c main_v4) (funext fun a => Fin.ext ?_)
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- The bias row is staged whole at every point. -/
theorem bias_block (c : Dev nD) (t : Fin cfg2.N) : iblk2 V c 2 t = V c main_v5 := by
  have e := idx_facts t
  funext y
  show V c main_v5 (((cfg2.win 2).blk t).view.emb y) = V c main_v5 y
  refine congrArg (V c main_v5) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- What point `t` writes back is block `t` of the row function applied to all of `adj`, of the arrays as the region
    finds them. -/
theorem flushed_eq (c : Dev nD) (t : Fin cfg2.N) :
    (dat2 V c).flushed 3 t
      = ((cfg2.win 3).blk t).view.read (Elt Ideal) (mapRows (M := 10000) (K := 10000) (N := 64) (rowOut (V c main_v4) (fun n => V c main_v5 (ix2 (0 : Fin 1) n))) (V c main_arg1)) := by
  show (cfg2.win 3).cut (grid2.coords t) ((dat2 V c).after 3 t) = _
  rw [after2_3]
  unfold out2_3
  rw [View.canon_unit_zero hz]
  simp only [View.ld_unit_zero (S := S200x10000) hz, View.ld_unit_zero (S := S10000x64) hz, View.ld_unit_zero (S := S1x64) hz]
  rw [payload_eq, hidden_block, bias_block]
  have e := idx_facts t
  funext j
  show mapRows (rowOut (V c main_v4) (fun n => V c main_v5 (ix2 (0 : Fin 1) n))) (iblk2 V c 0 t) j
    = mapRows (rowOut (V c main_v4) (fun n => V c main_v5 (ix2 (0 : Fin 1) n))) (V c main_arg1) (((cfg2.win 3).blk t).view.emb j)
  refine mapRows_block _ _ _ j _ (fun k => ?_) (Fin.ext ?_)
  · show V c main_arg1 (((cfg2.win 0).blk t).view.emb (ix2 (j 0) k)) = V c main_arg1 (ix2 ((((cfg2.win 3).blk t).view.emb j) 0) k)
    refine congrArg (V c main_arg1) (funext fun a => Fin.ext ?_)
    match a with
    | ⟨0, _⟩ => show win2_0.index t (0 : Fin 2) * 200 + 1 * (j 0).val = win2_3.index t (0 : Fin 2) * 200 + 1 * (j 0).val; omega
    | ⟨1, _⟩ => show win2_0.index t (1 : Fin 2) * 10000 + 1 * k.val = k.val; omega
  · show (j 1).val = win2_3.index t (1 : Fin 2) * 64 + 1 * (j 1).val; omega

/-- An index of the array is in point `t`'s block iff each coordinate is in the block's range on its axis. -/
theorem mem_blk (t : Fin cfg2.N) (i : S10000x64.Idx) :
    i ∈ ((cfg2.win 3).blk t).view.set ↔ ∀ a : Fin 2, win2_3.index t a * S200x64.size a ≤ (i a).val ∧ (i a).val < win2_3.index t a * S200x64.size a + S200x64.size a := by
  show i ∈ ((View.whole main_v6).slice (win2_3.rect t)).set ↔ _
  rw [View.set_slice_whole, Rect.mem_set_unit]
  exact Iff.rfl

/-- The blocks tile the array: row `r` lies in the block of point `r / 200`. -/
theorem cover (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  obtain ⟨t, ht⟩ := idx_onto ⟨(i 0).val / 200, by omega⟩
  have q0 : win2_3.index t (0 : Fin 2) = (i 0).val / 200 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 64 ≤ (i 1).val ∧ (i 1).val < win2_3.index t (1 : Fin 2) * 64 + 64; omega

/-- After the region the output array is the row function applied to all of `adj`, of the arrays as the region found them. -/
theorem final (c : Dev nD) :
    (dat2 V c).arrAt 3 cfg2.N = mapRows (M := 10000) (K := 10000) (N := 64) (rowOut (V c main_v4) (fun n => V c main_v5 (ix2 (0 : Fin 1) n))) (V c main_arg1) :=
  (dat2 V c).arrAt_eq_of_cover 3 _ (fun t _ => flushed_eq V c t) cover

end Cert.KernelIdeal.Output

end
-- ==== Proof.LibBiasRow.lean ====
/-
  GENERAL LEMMAS: an affine layer whose bias is a one-axis array, read one output at a time on the extended reals.

  The vector program keeps a bias as an `[N]` array, recasts it as a `[1, N]` row and broadcasts the row down the rows
  of the product. Recasting changes no entry: the row at `(0, n)` is the array at `n`. So the layer at entry `(p, c)` is
  `∑ k, x k · w k c + b c` with `x` row `p` of the left matrix, as for a `[1, N]` bias (`Dense.matmul_bias_apply`).
  Also here: the positive part against a splat zero at an entry, and the fact that an affine map and a joined row depend
  on their rows only through the rows' entries (`lin_congr`, `cat_congr`), which lets a layer be read from the inside out.
-/
import proofs.«125310_g36017595744856_cont_8to1_b_1121_3_alg».proof.Proof.LibDense

noncomputable section

namespace Idealize.ShloMosaic.Dense

open Idealize.ShloMosaic Idealize.ShloMosaic.ValueIdx

variable {M K N : Nat}

/-- An `[N]` array recast as a `[1, N]` row reads, at `(0, n)`, the array at `n`. -/
theorem shapeCast_row_apply {α : Type} (b : (⟨1, ![N]⟩ : Shape).Idx → α)
    (h : (⟨1, ![N]⟩ : Shape).ShapeCasts ⟨2, ![1, N]⟩) (n : Fin N) :
    shapeCast ⟨2, ![1, N]⟩ b h (ix2 (0 : Fin 1) n) = b (ix1 n) := by
  refine (shapeCast_addUnit_apply ![N] b h (ix2 (0 : Fin 1) n)).trans (congrArg b ?_)
  funext a
  match a with
  | ⟨0, _⟩ => rfl

/-- A product into the zero accumulator plus an `[N]` bias recast as a row and broadcast down the rows. -/
theorem matmul_arrBias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    addf (matmul D none l r (constant (F := Ideal) ⟨2, ![M, N]⟩ .f32 0x00000000#32))
        (broadcastTo ⟨2, ![M, N]⟩ (shapeCast ⟨2, ![1, N]⟩ b hc) hb) (ix2 p c)
      = lin (fun k => l (ix2 p k)) (fun k n => r (ix2 k n)) (fun n => b (ix1 n)) c := by
  refine (matmul_bias_apply D hD l r (shapeCast ⟨2, ![1, N]⟩ b hc) hb p c).trans ?_
  exact congrArg (fun f => lin (fun k => l (ix2 p k)) (fun k n => r (ix2 k n)) f c)
    (funext fun n => shapeCast_row_apply b hc n)

/-- The same followed by the positive part against a splat zero. -/
theorem matmul_arrBias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    maximumf (addf (matmul D none l r (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p c)
      = relu (lin (fun k => l (ix2 p k)) (fun k n => r (ix2 k n)) (fun n => b (ix1 n)) c) := by
  refine (matmul_bias_relu_apply D hD l r (shapeCast ⟨2, ![1, N]⟩ b hc) hb p c).trans ?_
  exact congrArg (fun f => relu (lin (fun k => l (ix2 p k)) (fun k n => r (ix2 k n)) f c))
    (funext fun n => shapeCast_row_apply b hc n)

/-- The positive part against a splat zero, at an entry. -/
theorem maximumf_zero_apply {s : Shape} (v : FVec Ideal s .f32) (i : s.Idx) :
    maximumf v (broadcast s (Scalar.ofBits (F := Ideal) .f32 0x00000000#32)) i = relu (v i) := rfl

/-- Two rows joined end to end depend on the rows only through their entries. -/
theorem cat_congr {a b c : Nat} (hc : c = a + b) {u u' : Fin a → EReal} {v v' : Fin b → EReal}
    (hu : ∀ q, u q = u' q) (hv : ∀ q, v q = v' q) (j : Fin c) : cat hc u v j = cat hc u' v' j :=
  congrArg₂ (fun f g => cat hc f g j) (funext hu) (funext hv)

/-- The affine map depends on its row only through the row's entries. -/
theorem lin_congr {x y : Fin K → EReal} (h : ∀ k, x k = y k) (w : Fin K → Fin N → EReal) (b : Fin N → EReal) (c : Fin N) :
    lin x w b c = lin y w b c :=
  congrArg (fun z => lin z w b c) (funext h)

end Idealize.ShloMosaic.Dense

end
-- ==== Proof.KernelValue.lean ====
/-
  The idealized kernel's result as one function of its arguments.

  The buffer contents at @main's segment boundaries are a fold from the launch memory: a stretch of host operations
  applies its operations, a region leaves its output array at what its write-backs assemble and every other buffer as it
  was. Reading the fold back from the result: the third region's output is `mapRows (rowOut g b2) adj` of the arrays it
  found (`Output.final`), of which `g` is the second region's output `mapRows (rowHidden s b1 W2) adj` (`Hidden.final`), of
  which `s` is the first region's output `mapRows (rowProd W1) x` (`Support.final`). The host operations in between only
  change float formats (the identity on the extended reals) and recast a bias `[n]` as a row `[1, n]`, whose entry
  `(0, j)` is the bias's entry `j`; no operation and no region writes an argument array. Composed, the result is `gcn` of
  the six argument arrays.
-/
import proofs.«125310_g36017595744856_cont_8to1_b_1121_3_alg».proof.Proof.KernelRun
import proofs.«125310_g36017595744856_cont_8to1_b_1121_3_alg».proof.Proof.RegionSupport
import proofs.«125310_g36017595744856_cont_8to1_b_1121_3_alg».proof.Proof.RegionHidden
import proofs.«125310_g36017595744856_cont_8to1_b_1121_3_alg».proof.Proof.RegionOutput
import proofs.«125310_g36017595744856_cont_8to1_b_1121_3_alg».proof.Proof.LibBiasRow
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Gcn Idealize.ShloMosaic.StableHlo
open Idealize.ShloMosaic.Pipeline (Dat)

variable (m : (ℓ : Loc nD τ sig) → Buf (Elt Ideal) ℓ) (ρ : Dev nD → PrngReg)

/-! ## The first region's entry and exit -/

theorem entry0_x (c : Dev nD) : V1 m ρ c main_arg0 = m ((c : Thread nD τ).loc main_arg0) := by
  show after hostOps0 (W0 m ρ c) (Proc.devRef .tc main_arg0) = _
  after_results <;> rfl

theorem entry0_w (c : Dev nD) : (V1 m ρ c main_v0 : Mat 128 128) = m ((c : Thread nD τ).loc main_arg2) := by
  show after hostOps0 (W0 m ρ c) (Proc.devRef .tc main_v0) = _
  after_results <;> rfl

/-- After the first region its output holds `x · W1`. -/
theorem support_eq (c : Dev nD) :
    (W2 m ρ c (Proc.devRef .tc main_v1) : Mat 10000 128) = mapRows (rowProd (m ((c : Thread nD τ).loc main_arg2))) (m ((c : Thread nD τ).loc main_arg0)) := by
  refine (W2_arr m ρ c 2).trans ((Support.final (V1 m ρ) c).trans ?_)
  rw [entry0_x, entry0_w]

/-- An argument the first stretch and the first region do not write is as launched after them. -/
theorem exit0_arg1 (c : Dev nD) : W2 m ρ c (Proc.devRef .tc main_arg1) = m ((c : Thread nD τ).loc main_arg1) := by
  refine (W2_of_ne m ρ c main_arg1 (by decide)).trans ?_
  show after hostOps0 (W0 m ρ c) (Proc.devRef .tc main_arg1) = _
  after_results <;> rfl
theorem exit0_arg3 (c : Dev nD) : W2 m ρ c (Proc.devRef .tc main_arg3) = m ((c : Thread nD τ).loc main_arg3) := by
  refine (W2_of_ne m ρ c main_arg3 (by decide)).trans ?_
  show after hostOps0 (W0 m ρ c) (Proc.devRef .tc main_arg3) = _
  after_results <;> rfl
theorem exit0_arg4 (c : Dev nD) : W2 m ρ c (Proc.devRef .tc main_arg4) = m ((c : Thread nD τ).loc main_arg4) := by
  refine (W2_of_ne m ρ c main_arg4 (by decide)).trans ?_
  show after hostOps0 (W0 m ρ c) (Proc.devRef .tc main_arg4) = _
  after_results <;> rfl
theorem exit0_arg5 (c : Dev nD) : W2 m ρ c (Proc.devRef .tc main_arg5) = m ((c : Thread nD τ).loc main_arg5) := by
  refine (W2_of_ne m ρ c main_arg5 (by decide)).trans ?_
  show after hostOps0 (W0 m ρ c) (Proc.devRef .tc main_arg5) = _
  after_results <;> rfl

/-! ## The second region's entry and exit -/

theorem entry1_adj (c : Dev nD) : V3 m ρ c main_arg1 = m ((c : Thread nD τ).loc main_arg1) := by
  refine Eq.trans ?_ (exit0_arg1 m ρ c)
  show after hostOps1 (W2 m ρ c) (Proc.devRef .tc main_arg1) = _
  after_results

theorem entry1_s (c : Dev nD) : (V3 m ρ c main_v1 : Mat 10000 128) = mapRows (rowProd (m ((c : Thread nD τ).loc main_arg2))) (m ((c : Thread nD τ).loc main_arg0)) := by
  refine Eq.trans ?_ (support_eq m ρ c)
  show after hostOps1 (W2 m ρ c) (Proc.devRef .tc main_v1) = _
  after_results

/-- The bias recast as a row: entry `(0, n)` is the bias's entry `n`. -/
theorem entry1_b (c : Dev nD) (n : Fin 128) : V3 m ρ c main_v2 (ix2 (0 : Fin 1) n) = m ((c : Thread nD τ).loc main_arg3) (ix1 n) := by
  show after hostOps1 (W2 m ρ c) (Proc.devRef .tc main_v2) (ix2 (0 : Fin 1) n) = _
  after_results
  rw [exit0_arg3]
  exact Dense.shapeCast_row_apply _ _ n

theorem entry1_w (c : Dev nD) : (V3 m ρ c main_v3 : Mat 128 64) = m ((c : Thread nD τ).loc main_arg4) := by
  refine Eq.trans ?_ (exit0_arg4 m ρ c)
  show after hostOps1 (W2 m ρ c) (Proc.devRef .tc main_v3) = _
  after_results <;> rfl

/-- After the second region its output holds `relu (adj · s + b1) · W2`. -/
theorem hidden_eq (c : Dev nD) :
    (W4 m ρ c (Proc.devRef .tc main_v4) : Mat 10000 64)
      = mapRows (rowHidden (mapRows (rowProd (m ((c : Thread nD τ).loc main_arg2))) (m ((c : Thread nD τ).loc main_arg0))) (fun n => m ((c : Thread nD τ).loc main_arg3) (ix1 n)) (m ((c : Thread nD τ).loc main_arg4))) (m ((c : Thread nD τ).loc main_arg1)) := by
  refine (W4_arr m ρ c 4).trans ((Hidden.final (V3 m ρ) c).trans ?_)
  rw [entry1_adj, entry1_s, entry1_w, show (fun n : Fin 128 => V3 m ρ c main_v2 (ix2 (0 : Fin 1) n)) = fun n => m ((c : Thread nD τ).loc main_arg3) (ix1 n) from funext (entry1_b m ρ c)]

theorem exit1_adj (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (entry1_adj m ρ c)

theorem exit1_arg5 (c : Dev nD) : W4 m ρ c (Proc.devRef .tc main_arg5) = m ((c : Thread nD τ).loc main_arg5) := by
  refine (W4_of_ne m ρ c main_arg5 (by decide)).trans (Eq.trans ?_ (exit0_arg5 m ρ c))
  show after hostOps1 (W2 m ρ c) (Proc.devRef .tc main_arg5) = _
  after_results

/-! ## The third region's entry and exit -/

theorem entry2_adj (c : Dev nD) : V5 m ρ c main_arg1 = m ((c : Thread nD τ).loc main_arg1) := by
  refine Eq.trans ?_ (exit1_adj m ρ c)
  show after hostOps2 (W4 m ρ c) (Proc.devRef .tc main_arg1) = _
  after_results

theorem entry2_g (c : Dev nD) :
    (V5 m ρ c main_v4 : Mat 10000 64)
      = mapRows (rowHidden (mapRows (rowProd (m ((c : Thread nD τ).loc main_arg2))) (m ((c : Thread nD τ).loc main_arg0))) (fun n => m ((c : Thread nD τ).loc main_arg3) (ix1 n)) (m ((c : Thread nD τ).loc main_arg4))) (m ((c : Thread nD τ).loc main_arg1)) := by
  refine Eq.trans ?_ (hidden_eq m ρ c)
  show after hostOps2 (W4 m ρ c) (Proc.devRef .tc main_v4) = _
  after_results

theorem entry2_b (c : Dev nD) (n : Fin 64) : V5 m ρ c main_v5 (ix2 (0 : Fin 1) n) = m ((c : Thread nD τ).loc main_arg5) (ix1 n) := by
  show after hostOps2 (W4 m ρ c) (Proc.devRef .tc main_v5) (ix2 (0 : Fin 1) n) = _
  after_results
  rw [exit1_arg5]
  exact Dense.shapeCast_row_apply _ _ n

/-- The result array after the run is `gcn` of the argument arrays. -/
theorem value (c : Dev nD) :
    (W6 m ρ c (Proc.devRef .tc main_v6) : Mat 10000 64)
      = gcn (m ((c : Thread nD τ).loc main_arg0)) (m ((c : Thread nD τ).loc main_arg1)) (m ((c : Thread nD τ).loc main_arg2)) (fun n => m ((c : Thread nD τ).loc main_arg3) (ix1 n)) (m ((c : Thread nD τ).loc main_arg4)) (fun n => m ((c : Thread nD τ).loc main_arg5) (ix1 n)) := by
  refine (W6_arr m ρ c 3).trans ((Output.final (V5 m ρ) c).trans ?_)
  rw [entry2_adj, entry2_g, show (fun n : Fin 64 => V5 m ρ c main_v5 (ix2 (0 : Fin 1) n)) = fun n => m ((c : Thread nD τ).loc main_arg5) (ix1 n) from funext (entry2_b m ρ c)]
  rfl

/-- Every weakly fair execution of the idealized kernel terminates with the result array at `gcn` of the launch
    contents of the arguments, the arguments unchanged. -/
theorem run : θ_run defs (onTc (τ := τ) (main (F := Ideal))) ⟨m, fun _ => 0, ρ⟩ (fun r => ∀ c : Dev nD,
      r.2.mem ((c.tc : Thread nD τ).loc main_v6)
        = gcn (m ((c : Thread nD τ).loc main_arg0)) (m ((c : Thread nD τ).loc main_arg1)) (m ((c : Thread nD τ).loc main_arg2)) (fun n => m ((c : Thread nD τ).loc main_arg3) (ix1 n)) (m ((c : Thread nD τ).loc main_arg4)) (fun n => m ((c : Thread nD τ).loc main_arg5) (ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (KRun.run_named m ρ)

end Cert.KernelIdeal.KValue

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.RefRun.lean ====
/-
  The reference program's run, read back.

  @main of the reference is a straight line of 28 host operations: the thirteen that compute the logits
  z = adj · (relu (adj · (x · W1) + b1) · W2) + b2, then the fifteen of the row-wise log-softmax of z. Every weakly fair
  execution terminates with each buffer at the fold of the operations' results over the launch contents. The fold is read
  in two stretches, so that the log-softmax stretch is read over a NAMED logits array rather than over four copies of its
  term: the result is `logSoftmaxTerm (logitsTerm x adj W1 b1 W2 b2)` of the argument arrays, and the arguments end as
  launched.
-/
import proofs.«125310_g36017595744856_cont_8to1_b_1121_3_alg».proof.Proof.Gen.ReferenceIdeal
import Idealize.ShloMosaic.Lib.StableHlo.Run
import Idealize.ShloMosaic.Lib.Pipeline.Frame
import proofs.«125310_g36017595744856_cont_8to1_b_1121_3_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirteen operations up to the logits. -/
abbrev opsLogits : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v4) (TRef.of (T := ⟨S10000x128, .f32⟩) main_call0_v0) (TRef.of (T := ⟨S10000x128, .f32⟩) main_v5) maximumf,
    binary main_v5 main_arg4 main_v6 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)) ]

/-- The fifteen operations of the row-wise log-softmax. -/
abbrev opsSoftmax : List (HloOp τ sig (Elt F)) :=
  [ TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

/-- @main's 28 operations, in order. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v4) (TRef.of (T := ⟨S10000x128, .f32⟩) main_call0_v0) (TRef.of (T := ⟨S10000x128, .f32⟩) main_v5) maximumf,
    binary main_v5 main_arg4 main_v6 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0xFF800000#32),
    TRef.binary (TRef.of (T := ⟨S10000x64, .f32⟩) main_v10) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v10) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v11) subf ]

theorem ops_split : (ops : List (HloOp τ sig (Elt F))) = opsLogits ++ opsSoftmax := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The logits as the operations compose them: adj · (relu (adj · (x · W1) + b1) · W2) + b2. -/
def logitsTerm (x : FVec F S10000x128 .f32) (adj : FVec F S10000x10000 .f32) (W1 : FVec F S128x128 .f32) (b1 : FVec F S128 .f32)
    (W2 : FVec F S128x64 .f32) (b2 : FVec F S64 .f32) : FVec F S10000x64 .f32 :=
  addf (Host.dotGeneral dot_S10000x10000_S10000x64_S10000x64_1_0_0_1_n_n none adj (Host.dotGeneral dot_S10000x128_S128x64_S10000x64_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2)) (broadcastInDim S10000x64 ![0, 1] bcast_S1x64_S10000x64_0_1 (broadcastInDim S1x64 ![1] bcast_S64_S1x64_1 b2))

/-- The row-wise log-softmax as the operations compose it, of a logits array `z`. -/
def logSoftmaxTerm (z : FVec F S10000x64 .f32) : FVec F S10000x64 .f32 :=
  subf (subf z (broadcastInDim S10000x64 ![0, 1] bcast_S10000x1_S10000x64_0_1 (broadcastInDim S10000x1 ![0] bcast_S10000_S10000x1_0 (maximumf (broadcastInDim S10000 ![] bcast_S_S10000 (constant S_ .f32 0xFF800000#32)) (Host.reduce FloatOps.maximumf z (constant S_ .f32 0xFF800000#32) reducesTo_S10000x64_S10000_d1 h_S_))))) (broadcastInDim S10000x64 ![0, 1] bcast_S10000x1_S10000x64_0_1 (Host.log (broadcastInDim S10000x1 ![0] bcast_S10000_S10000x1_0 (Host.reduceAdd (Host.exp (subf z (broadcastInDim S10000x64 ![0, 1] bcast_S10000x1_S10000x64_0_1 (broadcastInDim S10000x1 ![0] bcast_S10000_S10000x1_0 (maximumf (broadcastInDim S10000 ![] bcast_S_S10000 (constant S_ .f32 0xFF800000#32)) (Host.reduce FloatOps.maximumf z (constant S_ .f32 0xFF800000#32) reducesTo_S10000x64_S10000_d1 h_S_)))))) (constant S_ .f32 0x00000000#32) reducesTo_S10000x64_S10000_d1 h_S_))))

/-- The first stretch leaves the logits' buffer at `logitsTerm` of the argument buffers. -/
theorem after_logits (V : Valuation τ sig (Elt F)) :
    after opsLogits V (Proc.devRef .tc main_v10)
      = logitsTerm (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results
  rfl

/-- The second stretch leaves the result's buffer at `logSoftmaxTerm` of the logits' buffer. -/
theorem after_softmax (W : Valuation τ sig (Elt F)) :
    after opsSoftmax W (Proc.devRef .tc main_v11) = logSoftmaxTerm (F := F) (W (Proc.devRef .tc main_v10)) := by
  after_results
  simp only [TypedRef.ofBuf_toBuf]
  rfl

set_option maxHeartbeats 2000000 in
/-- On every device, from any memory with zero counters: every weakly fair execution of @main terminates with the
    result at the log-softmax of the logits of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = logSoftmaxTerm (logitsTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (by
        rw [ops_split, StableHlo.after_append, after_softmax, after_logits]),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl),
      (h c main_arg5).trans (by after_results <;> rfl)⟩)
    (run_seq scopedRefs_eq scopedSems_eq defs main (fun _ => ops) main_eq (fun _ => ops_sub) m ρ)

end Cert.ReferenceIdeal.RefRun

end
-- ==== Proof.RefValue.lean ====
/-
  The reference's result is the same function of the arguments.

  The reference composes the logits adj · (relu (adj · (x · W1) + b1) · W2) + b2 out of four host products, two biases
  broadcast over the rows and one positive part, and then takes the row-wise log-softmax. Read at an entry `(p, q)`, from
  the outside in: the log-softmax of row `p` of the logits (`LogSoftmax.host_apply`); entry `k` of that row is row `p` of
  `adj` against column `k` of `g` plus `b2 k`; entry `(r, n)` of `g` is the sum over `i` of the positive part of row `r` of
  `adj` against column `i` of `s` plus `b1 i`, times `W2 (i, n)`; and entry `(k', n')` of `s` is row `k'` of `x` against column
  `n'` of `W1`. That is `gcn` with the same association of the products, so no law of arithmetic is needed beyond
  reading each operation at an entry.
-/
import proofs.«125310_g36017595744856_cont_8to1_b_1121_3_alg».proof.Proof.RefRun
import proofs.«125310_g36017595744856_cont_8to1_b_1121_3_alg».proof.Proof.Spec
import proofs.«125310_g36017595744856_cont_8to1_b_1121_3_alg».proof.Proof.LibPlainDot
import proofs.«125310_g36017595744856_cont_8to1_b_1121_3_alg».proof.Proof.LibDense
import proofs.«125310_g36017595744856_cont_8to1_b_1121_3_alg».proof.Proof.LibLogSoftmax

noncomputable section

namespace Cert.ReferenceIdeal.RefValue

open Cert.ReferenceIdeal Cert.ReferenceIdeal.Gen Idealize.ShloMosaic Idealize.ShloMosaic.ValueIdx Cert.Gcn

/-- The reference's composed term is `gcn` of its arguments (the biases read by their one coordinate). -/
theorem result_eq (x : FVec Ideal S10000x128 .f32) (adj : FVec Ideal S10000x10000 .f32) (W1 : FVec Ideal S128x128 .f32)
    (b1 : FVec Ideal S128 .f32) (W2 : FVec Ideal S128x64 .f32) (b2 : FVec Ideal S64 .f32) :
    RefRun.logSoftmaxTerm (RefRun.logitsTerm x adj W1 b1 W2 b2)
      = gcn x adj W1 (fun n => b1 (ix1 n)) W2 (fun n => b2 (ix1 n)) := by
  funext j
  obtain ⟨p, q, rfl⟩ : ∃ (p : Fin 10000) (q : Fin 64), j = ix2 p q := ⟨j 0, j 1, eq_ix2 j⟩
  unfold RefRun.logSoftmaxTerm
  refine (LogSoftmax.host_apply _ _ _ _ _ (by decide) _ p q).trans ?_
  show LogSoftmax.row _ q
    = LogSoftmax.row (rowAffine (mapRows (rowHidden (mapRows (rowProd W1) x) (fun n => b1 (ix1 n)) W2) adj) (fun n => b2 (ix1 n))
        (fun k => adj (ix2 p k))) q
  refine congrArg (fun z => LogSoftmax.row z q) (funext fun k => ?_)
  unfold RefRun.logitsTerm
  refine (Dense.hostDot_bias_apply (φ₁ := .f32) (φ₂ := .f32) _ rfl _ _ _ _ _ p k).trans ?_
  refine congrArg (fun g : Fin 10000 → Fin 64 → EReal => Dense.lin (fun k' => adj (ix2 p k')) g (fun n => b2 (ix1 n)) k)
    (funext fun r => funext fun n => ?_)
  refine (PlainDot.hostDot_apply (φ₁ := .f32) (φ₂ := .f32) _ rfl none _ _ (ix2 r n)).trans ?_
  show _ = ∑ i : Fin 128, Dense.relu (rowAffine (mapRows (rowProd W1) x) (fun n => b1 (ix1 n)) (fun k' => adj (ix2 r k')) i) * W2 (ix2 i n)
  refine Finset.sum_congr rfl fun i _ => congrArg (· * W2 (ix2 i n)) ?_
  refine (Dense.hostDot_bias_relu_apply (φ₁ := .f32) (φ₂ := .f32) _ rfl _ _ _ _ _ _ r i).trans ?_
  refine congrArg (fun s : Fin 10000 → Fin 128 → EReal => Dense.relu (Dense.lin (fun k' => adj (ix2 r k')) s (fun n => b1 (ix1 n)) i))
    (funext fun k' => funext fun n' => ?_)
  exact PlainDot.hostDot_apply (φ₁ := .f32) (φ₂ := .f32) _ rfl none _ _ (ix2 k' n')

end Cert.ReferenceIdeal.RefValue

end
-- ==== Proof.lean ====
/-
  A two-layer graph convolution network with a dense adjacency, as three pipelined kernels, against its jnp reference.

  Both programs compute, for features `x`, adjacency `adj`, weights `W1`, `W2` and biases `b1`, `b2`,
      out = log_softmax (adj · (relu (adj · (x · W1) + b1) · W2) + b2)
  with the products associated the same way. The kernel computes `s = x · W1` on five blocks of 2000 rows, then
  `g = relu (adj · s + b1) · W2` and `out = log_softmax (adj · g + b2)` each on fifty blocks of 200 full rows of `adj`,
  the small operands resident; the reference is a straight line of host operations. On the extended reals the changes
  of float format are the identity, a product into a zero accumulator is the host's product, a lane reduction is the
  host's reduction, and every result row depends on one row of the streamed operand only, so the blocks assemble to
  one whole-array function `Gcn.gcn` — the same one the reference's operations compose. No law of arithmetic beyond
  reading each operation at an entry is used, and the finiteness of the inputs is not needed.

  Modules: `Spec` (the function `gcn`, row by row), `KernelRun` (the kernel's run with its result named),
  `RegionSupport` / `RegionHidden` / `RegionOutput` (each region's output array as a row function of its operands),
  `KernelValue` (the three composed through @main), `RefRun` (the reference's run), `RefValue` (its term is `gcn`).
  The frames of the two kernel programs are the generated ones; the reference's frame is its run with the result
  dropped; the ideal pass rewrote nothing, so `preserves` is trivial.
-/
import proofs.«125310_g36017595744856_cont_8to1_b_1121_3_alg».proof.Defs
import proofs.«125310_g36017595744856_cont_8to1_b_1121_3_alg».proof.Proof.Gen.Kernel
import proofs.«125310_g36017595744856_cont_8to1_b_1121_3_alg».proof.Proof.Gen.Kernel.Skeleton
import proofs.«125310_g36017595744856_cont_8to1_b_1121_3_alg».proof.Proof.Gen.Kernel.Launch
import proofs.«125310_g36017595744856_cont_8to1_b_1121_3_alg».proof.Proof.Gen.Kernel.Points
import proofs.«125310_g36017595744856_cont_8to1_b_1121_3_alg».proof.Proof.Gen.Kernel.Frame
import proofs.«125310_g36017595744856_cont_8to1_b_1121_3_alg».proof.Proof.Gen.KernelIdeal
import proofs.«125310_g36017595744856_cont_8to1_b_1121_3_alg».proof.Proof.Gen.KernelIdeal.Skeleton
import proofs.«125310_g36017595744856_cont_8to1_b_1121_3_alg».proof.Proof.Gen.KernelIdeal.Launch
import proofs.«125310_g36017595744856_cont_8to1_b_1121_3_alg».proof.Proof.Gen.KernelIdeal.Points
import proofs.«125310_g36017595744856_cont_8to1_b_1121_3_alg».proof.Proof.Gen.KernelIdeal.Frame
import proofs.«125310_g36017595744856_cont_8to1_b_1121_3_alg».proof.Proof.Gen.ReferenceIdeal
import proofs.«125310_g36017595744856_cont_8to1_b_1121_3_alg».proof.Proof.Gen.Pre_finite_inputs
import proofs.«125310_g36017595744856_cont_8to1_b_1121_3_alg».proof.Proof.KernelValue
import proofs.«125310_g36017595744856_cont_8to1_b_1121_3_alg».proof.Proof.RefValue
import Idealize.ShloMosaic.Adequacy
import Idealize.ShloMosaic.Init

noncomputable section

namespace Cert.Proof

open Idealize.ShloMosaic Idealize.SL.Sem

/-- The word-level kernel runs and leaves its arguments unchanged (the generated frame). -/
theorem frame_kernel : Cert.frame_Kernel := fun m ρ _ => Cert.Kernel.Gen.frame m ρ

/-- The idealized kernel runs and leaves its arguments unchanged (the generated frame). -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both programs end with the result array at `gcn` of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
